-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S256x128 : Shape := ⟨2, ![256, 128]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S320000x128 .f32) (main_arg1 : FVec F S320000x128 .f32) (main_arg2 : FVec F S256x128 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S320000x128 : Shape := ⟨2, ![320000, 128]⟩
abbrev S256x128 : Shape := ⟨2, ![256, 128]⟩
abbrev S10000x128 : Shape := ⟨2, ![10000, 128]⟩
abbrev S128x128 : Shape := ⟨2, ![128, 128]⟩

abbrev nBuf : Space → Nat
  | .hbm => 4
  | .vmem => 7
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S256x128, .f32⟩
  | .hbm, ⟨3, _⟩ => ⟨S320000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S256x128, .f32⟩
  | .local _ .vmem, ⟨5, _⟩ => ⟨S10000x128, .f32⟩
  | .local _ .vmem, ⟨6, _⟩ => ⟨S10000x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S320000x128.size a
  hwx0_0 : ∀ i : grid0.Coords, EltTy.bits .f32 = 32 ∨ (Rect.block (s := S320000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S320000x128.size a
  hwx0_1 : ∀ i : grid0.Coords, EltTy.bits .f32 = 32 ∨ (Rect.block (s := S320000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S320000x128.size a
  hwx0_3 : ∀ i : grid0.Coords, EltTy.bits .f32 = 32 ∨ (Rect.block (s := S320000x128) S10000x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S320000x128 : Shape := ⟨2, ![320000, 128]⟩
abbrev S256x128 : Shape := ⟨2, ![256, 128]⟩
abbrev S320000x256 : Shape := ⟨2, ![320000, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S256x128, .f32⟩
  | .hbm, ⟨3, _⟩ => ⟨S320000x256, .f32⟩
  | .hbm, ⟨4, _⟩ => ⟨S320000x128, .f32⟩
  | .hbm, ⟨5, _⟩ => ⟨S_, .f32⟩
  | .hbm, ⟨6, _⟩ => ⟨S320000x128, .f32⟩
  | .hbm, ⟨7, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  concatenates_S320000x128_S320000x128_S320000x256_d1 : Shape.Concatenates [S320000x128, S320000x128] S320000x256 1
  bcast_S_S320000x128 : S_.BroadcastsInDim S320000x128 (![] : Fin 0 → Fin S320000x128.rank)
  dot_S320000x256_S256x128_S320000x128_1_0_0_1_n_n_wf : DotDims.WF S320000x256 S256x128 S320000x128 [1] [0] [0] [1] [] []

variable [Facts₀]

def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf

class Facts : Prop extends Facts₀ where

variable [Facts]
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.Spec.lean ====
/-
  The edge encoder, as one function of its three argument arrays.

  For an array `A` and an array `B` of E rows of 128 entries and a weight array `W` of 256 rows of 128 entries, the
  encoder's entry (r, q) is

      max (∑ l < 128, A (r, l) * W (l, q)  +  ∑ l < 128, B (r, l) * W (128 + l, q)) 0 :

  row r of A times the top half of W, plus row r of B times the bottom half of W, clamped below at zero.  `top` and
  `bot` name the two halves of W as arrays of their own, and `G` is the encoder.

  Laying row r of A and row r of B end to end gives a row of 256 entries, and that row times the whole of W is a sum
  over 256 positions.  `sum_halves` cuts any sum over 256 positions into its first 128 and its last 128 terms; it is
  a regrouping of a finite sum in a commutative monoid, so it holds on the extended reals with no finiteness
  assumption.
-/
import Idealize.ShloMosaic.Lib.ValueIdx
import Idealize.ShloMosaic.PureOps.Ideal.Laws
import proofs.«122359_g72773925864120_cont_sun_m_400_11_alg».proof.Proof.LibMatProd

noncomputable section

open scoped BigOperators

namespace EdgeEnc

open Idealize.ShloMosaic Idealize.ShloMosaic.ValueIdx

/-- Position `l` of the first half of a row of 256. -/
def lo (l : Fin 128) : Fin 256 := ⟨l.val, by omega⟩

/-- Position `l` of the second half of a row of 256. -/
def hi (l : Fin 128) : Fin 256 := ⟨128 + l.val, by omega⟩

/-- A sum over 256 positions is the sum over the first 128 plus the sum over the last 128. -/
theorem sum_halves {M : Type*} [AddCommMonoid M] (f : Fin 256 → M) :
    ∑ k : Fin 256, f k = ∑ l : Fin 128, f (lo l) + ∑ l : Fin 128, f (hi l) := by
  show ∑ k : Fin (128 + 128), f k = _
  rw [Fin.sum_univ_add]
  rfl

/-- The top half of the weights: rows 0 … 127. -/
def top (W : (⟨2, ![256, 128]⟩ : Shape).Idx → EReal) : (⟨2, ![128, 128]⟩ : Shape).Idx → EReal :=
  fun j => W (ix2 (lo ⟨(j 0).val, idx2_lt0 j⟩) ⟨(j 1).val, idx2_lt1 j⟩)

/-- The bottom half of the weights: rows 128 … 255. -/
def bot (W : (⟨2, ![256, 128]⟩ : Shape).Idx → EReal) : (⟨2, ![128, 128]⟩ : Shape).Idx → EReal :=
  fun j => W (ix2 (hi ⟨(j 0).val, idx2_lt0 j⟩) ⟨(j 1).val, idx2_lt1 j⟩)

theorem top_ix2 (W : (⟨2, ![256, 128]⟩ : Shape).Idx → EReal) (l q : Fin 128) : top W (ix2 l q) = W (ix2 (lo l) q) := rfl

theorem bot_ix2 (W : (⟨2, ![256, 128]⟩ : Shape).Idx → EReal) (l q : Fin 128) : bot W (ix2 l q) = W (ix2 (hi l) q) := rfl

/-- Entry (r, q) of the encoder over `n` rows: row r of A times the top half of W plus row r of B times the bottom
    half, clamped below at zero. -/
def enc {n : ℕ} (A B : (⟨2, ![n, 128]⟩ : Shape).Idx → EReal) (W : (⟨2, ![256, 128]⟩ : Shape).Idx → EReal)
    (r : Fin n) (q : Fin 128) : EReal :=
  max (MatProd.entry A (top W) r q + MatProd.entry B (bot W) r q) 0

/-- An encoder entry depends on one row of each of the two row arrays only: if row `p` of `a` is row `r` of `A`
    and row `p` of `b` is row `r` of `B`, entry (p, q) over `a`, `b` is entry (r, q) over `A`, `B`. -/
theorem enc_rows {n N : ℕ} (a b : (⟨2, ![n, 128]⟩ : Shape).Idx → EReal) (A B : (⟨2, ![N, 128]⟩ : Shape).Idx → EReal)
    (W : (⟨2, ![256, 128]⟩ : Shape).Idx → EReal) (p : Fin n) (r : Fin N)
    (ha : ∀ l, a (ix2 p l) = A (ix2 r l)) (hb : ∀ l, b (ix2 p l) = B (ix2 r l)) (q : Fin 128) :
    enc a b W p q = enc A B W r q := by
  unfold enc MatProd.entry
  have e1 : ∑ l : Fin 128, a (ix2 p l) * top W (ix2 l q) = ∑ l : Fin 128, A (ix2 r l) * top W (ix2 l q) :=
    Finset.sum_congr rfl fun l _ => by rw [ha l]
  have e2 : ∑ l : Fin 128, b (ix2 p l) * bot W (ix2 l q) = ∑ l : Fin 128, B (ix2 r l) * bot W (ix2 l q) :=
    Finset.sum_congr rfl fun l _ => by rw [hb l]
  rw [e1, e2]

/-- The same with the weights given twice: entry (p, q) over a band `a`, `b` and weights `w` is entry (r, q) over `A`, `B`
    and `W` when the band's row p is row r of the whole and `w` is `W`. -/
theorem enc_band {n N : ℕ} (a b : (⟨2, ![n, 128]⟩ : Shape).Idx → EReal) (w : (⟨2, ![256, 128]⟩ : Shape).Idx → EReal)
    (A B : (⟨2, ![N, 128]⟩ : Shape).Idx → EReal) (W : (⟨2, ![256, 128]⟩ : Shape).Idx → EReal) (p : Fin n) (r : Fin N)
    (ha : ∀ l, a (ix2 p l) = A (ix2 r l)) (hb : ∀ l, b (ix2 p l) = B (ix2 r l)) (hw : w = W) (q : Fin 128) :
    enc a b w p q = enc A B W r q := by
  subst hw
  exact enc_rows a b A B w p r ha hb q

/-- THE ENCODER: the array of E = 320000 rows whose entry at an index is `enc` at the index's two coordinates. -/
def G (A B : (⟨2, ![320000, 128]⟩ : Shape).Idx → EReal) (W : (⟨2, ![256, 128]⟩ : Shape).Idx → EReal) :
    (⟨2, ![320000, 128]⟩ : Shape).Idx → EReal :=
  fun i => enc A B W ⟨(i 0).val, idx2_lt0 i⟩ ⟨(i 1).val, idx2_lt1 i⟩

theorem G_ix2 (A B : (⟨2, ![320000, 128]⟩ : Shape).Idx → EReal) (W : (⟨2, ![256, 128]⟩ : Shape).Idx → EReal)
    (r : Fin 320000) (q : Fin 128) : G A B W (ix2 r q) = enc A B W r q := rfl

/-- Row r of A and row r of B laid end to end, times the whole of W: the sum over 256 positions of the joined row
    against column q of W is the encoder's sum of two products. -/
theorem joined_row {n : ℕ} (A B : (⟨2, ![n, 128]⟩ : Shape).Idx → EReal) (W : (⟨2, ![256, 128]⟩ : Shape).Idx → EReal)
    (r : Fin n) (q : Fin 128) (row : Fin 256 → EReal)
    (hlo : ∀ l, row (lo l) = A (ix2 r l)) (hhi : ∀ l, row (hi l) = B (ix2 r l)) :
    max (∑ k : Fin 256, row k * W (ix2 k q)) 0 = enc A B W r q := by
  unfold enc MatProd.entry
  rw [sum_halves]
  have e1 : ∑ l : Fin 128, row (lo l) * W (ix2 (lo l) q) = ∑ l : Fin 128, A (ix2 r l) * top W (ix2 l q) :=
    Finset.sum_congr rfl fun l _ => by rw [hlo l, top_ix2]
  have e2 : ∑ l : Fin 128, row (hi l) * W (ix2 (hi l) q) = ∑ l : Fin 128, B (ix2 r l) * bot W (ix2 l q) :=
    Finset.sum_congr rfl fun l _ => by rw [hhi l, bot_ix2]
  rw [e1, e2]

end EdgeEnc

end
-- ==== Proof.LibConcatCols.lean ====
/-
  Two arrays with the same number of rows laid side by side.

  Joining an n × a array X and an n × b array Y along the second axis gives an n × c array (c = a + b) whose row r is row r
  of X followed by row r of Y.  Read at an index (r, k) of the joined array: for k = l < a it is X (r, l) (`left`), and for
  k = a + l it is Y (r, l) (`right`).  The index of the joined array is given with its two coordinates as hypotheses, so
  the lemmas apply however the index is spelt.
-/
import Idealize.ShloMosaic.Lib.Pipeline.Value
import Idealize.ShloMosaic.Lib.ValueIdx

namespace ConcatCols

open Idealize.ShloMosaic Idealize.ShloMosaic.ValueIdx

variable {α : Type} {n a b c : ℕ}

/-- A position of the joined row that falls in the first array's columns reads the first array. -/
theorem left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin a) (hr : (j 0).val = r.val) (hl : (j 1).val = l.val) :
    concatenate ⟨2, ![n, c]⟩ 1 [⟨⟨2, ![n, a]⟩, x⟩, ⟨⟨2, ![n, b]⟩, y⟩] h j = x (ix2 r l) :=
  concatenate_pair_apply_left (t := ⟨2, ![n, c]⟩) (1 : Fin 2) x y h j rfl (ix2 r l)
    (fun d => by match d with | ⟨0, _⟩ => exact hr.symm | ⟨1, _⟩ => exact hl.symm)

/-- A position a + l of the joined row reads position l of the second array's row. -/
theorem right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin b) (hr : (j 0).val = r.val) (hl : (j 1).val = a + l.val) :
    concatenate ⟨2, ![n, c]⟩ 1 [⟨⟨2, ![n, a]⟩, x⟩, ⟨⟨2, ![n, b]⟩, y⟩] h j = y (ix2 r l) :=
  concatenate_pair_apply_right (t := ⟨2, ![n, c]⟩) (1 : Fin 2) x y h j rfl rfl (ix2 r l)
    (fun d hd => by match d, hd with | ⟨0, _⟩, _ => exact hr.symm | ⟨1, _⟩, hd => exact absurd rfl hd)
    (by show l.val + a = (j 1).val; omega)

end ConcatCols
-- ==== Proof.RefSpec.lean ====
/-
  The reference computes the encoder.

  The reference lays each row of A and the same row of B end to end (a concatenation along the second axis), multiplies
  the joined array by the whole of W (a contraction over 256 positions) and clamps at zero.  Read at an index (r, q):
  position k of the joined row r is A (r, k) for k < 128 and B (r, k - 128) from 128 on (`joined_lo`, `joined_hi`), the
  right factor is W (k, q), and the sum over the 256 positions regroups into the encoder's two sums (`joined_row`).
-/
import proofs.«122359_g72773925864120_cont_sun_m_400_11_alg».proof.Proof.Gen.ReferenceIdeal.Read
import proofs.«122359_g72773925864120_cont_sun_m_400_11_alg».proof.Proof.Spec
import proofs.«122359_g72773925864120_cont_sun_m_400_11_alg».proof.Proof.LibConcatCols

noncomputable section

open scoped BigOperators

namespace EdgeEnc.Ref

open Idealize.ShloMosaic Idealize.ShloMosaic.ValueIdx EdgeEnc
open Cert.ReferenceIdeal Cert.ReferenceIdeal.Read

/-- A first-half position of the joined row r reads row r of the first array. -/
theorem joined_lo (x0 x1 : (⟨S320000x128, .f32⟩ : BufTy).Contents (Elt Ideal)) (i : S320000x128.Idx) (l : Fin 128) :
    val_main_v0 (F := Ideal) x0 x1 (lidx_main_v1 i (lo l)) = x0 (ix2 ⟨(i 0).val, idx2_lt0 i⟩ l) := by
  unfold val_main_v0
  exact ConcatCols.left x0 x1 Gen.concatenates_S320000x128_S320000x128_S320000x256_d1 (lidx_main_v1 i (lo l))
    ⟨(i 0).val, idx2_lt0 i⟩ l rfl rfl

/-- A second-half position 128 + l of the joined row r reads position l of row r of the second array. -/
theorem joined_hi (x0 x1 : (⟨S320000x128, .f32⟩ : BufTy).Contents (Elt Ideal)) (i : S320000x128.Idx) (l : Fin 128) :
    val_main_v0 (F := Ideal) x0 x1 (lidx_main_v1 i (hi l)) = x1 (ix2 ⟨(i 0).val, idx2_lt0 i⟩ l) := by
  unfold val_main_v0
  exact ConcatCols.right x0 x1 Gen.concatenates_S320000x128_S320000x128_S320000x256_d1 (lidx_main_v1 i (hi l))
    ⟨(i 0).val, idx2_lt0 i⟩ l rfl rfl

/-- The reference's result is the encoder of its three arguments. -/
theorem ref_eq (x0 x1 : (⟨S320000x128, .f32⟩ : BufTy).Contents (Elt Ideal)) (x2 : (⟨S256x128, .f32⟩ : BufTy).Contents (Elt Ideal)) :
    val_main_v2 (F := Ideal) x0 x1 x2 = G x0 x1 x2 := by
  funext i
  rw [val_main_v2_apply, val_main_v1_apply, val_main_call0_v0_apply, val_main_call0_cst_apply]
  show max (∑ k : Fin 256, val_main_v0 (F := Ideal) x0 x1 (lidx_main_v1 i k) * x2 (ridx_main_v1 i k))
      (Ideal.ofBits .f32 0x00000000#32) = enc x0 x1 x2 ⟨(i 0).val, idx2_lt0 i⟩ ⟨(i 1).val, idx2_lt1 i⟩
  rw [Ideal.ofBits_zero_f32]
  have hW : ∀ k : Fin 256, ridx_main_v1 i k = ix2 k ⟨(i 1).val, idx2_lt1 i⟩ := fun k =>
    funext fun a => by match a with | ⟨0, _⟩ => rfl | ⟨1, _⟩ => rfl
  rw [Finset.sum_congr rfl fun k _ => by rw [hW k]]
  exact joined_row x0 x1 x2 ⟨(i 0).val, idx2_lt0 i⟩ ⟨(i 1).val, idx2_lt1 i⟩
    (fun k => val_main_v0 (F := Ideal) x0 x1 (lidx_main_v1 i k)) (joined_lo x0 x1 i) (joined_hi x0 x1 i)

end EdgeEnc.Ref

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Payload.lean ====
/-
  The kernel body's arithmetic at one position of its block.

  The body multiplies its block of A by the first 128 rows of its copy of W and its block of B by the last 128 rows,
  each product accumulated onto zero, adds the two products and clamps at zero.  At position (p, q) of the block that is
  the encoder's entry: the first product's entry is row p of the A block times the top half of W, the second's row p of
  the B block times the bottom half.  The two loads of W through the rectangles at row offsets 0 and 128 are the arrays
  `top W` and `bot W`.
-/
import proofs.«122359_g72773925864120_cont_sun_m_400_11_alg».proof.Proof.Gen.KernelIdeal.Frame
import Idealize.ShloMosaic.Lib.Pipeline.Value
import proofs.«122359_g72773925864120_cont_sun_m_400_11_alg».proof.Proof.LibDot2
import proofs.«122359_g72773925864120_cont_sun_m_400_11_alg».proof.Proof.Spec

noncomputable section

open scoped BigOperators

namespace EdgeEnc.Body

open Idealize.ShloMosaic Idealize.ShloMosaic.ValueIdx EdgeEnc
open Cert.KernelIdeal Cert.KernelIdeal.Gen

/-- The body's arithmetic at position (p, q), over any two row blocks and any two 128 × 128 weight blocks: the sum of the
    two product entries, clamped at zero. -/
theorem pay_at (x0 x1 : Vec Ideal S10000x128 .f32) (w1 w2 : Vec Ideal S128x128 .f32) (p : Fin 10000) (q : Fin 128) :
    k0_pay1 (F := Ideal) x0 w1 x1 w2 (ix2 p q) = max (MatProd.entry x0 w1 p q + MatProd.entry x1 w2 p q) 0 := by
  have hr := Dot2.rank_contr dot_S10000x128_S128x128_S10000x128_1_0_0_1_n_n rfl
  have h0 : 0 < dot_S10000x128_S128x128_S10000x128_1_0_0_1_n_n.contr.rank := by rw [hr]; exact Nat.one_pos
  have e1 := MatProd.matmul_zero_entry (φ₁ := .f32) (φ₂ := .f32) dot_S10000x128_S128x128_S10000x128_1_0_0_1_n_n none hr
    (Dot2.size_contr _ rfl _) (Dot2.lhs0 _ rfl rfl) (Dot2.lhs1 _ rfl _) (Dot2.rhs0 _ rfl _) (Dot2.rhs1 _ rfl rfl rfl rfl) x0 w1 p q
  have e2 := MatProd.matmul_zero_entry (φ₁ := .f32) (φ₂ := .f32) dot_S10000x128_S128x128_S10000x128_1_0_0_1_n_n none hr
    (Dot2.size_contr _ rfl _) (Dot2.lhs0 _ rfl rfl) (Dot2.lhs1 _ rfl _) (Dot2.rhs0 _ rfl _) (Dot2.rhs1 _ rfl rfl rfl rfl) x1 w2 p q
  have ez : (Ideal.ofBits .f32 0x00000000#32 : EReal) = 0 := Ideal.ofBits_zero_f32
  exact (congrArg₂ (fun a b : EReal => max (a + b) (Ideal.ofBits .f32 0x00000000#32)) e1 e2).trans (by rw [ez])

/-- The body's load of its copy of W through the rectangle at row offset 0 reads the top half. -/
theorem ld_top (x2 : Vec Ideal S256x128 .f32) : View.ld x2 r0_1 = top x2 := by
  funext j
  obtain ⟨l, q, rfl⟩ : ∃ (l q : Fin 128), j = ix2 l q := ⟨j 0, j 1, eq_ix2 j⟩
  rw [top_ix2]
  show x2 (r0_1.toLoadRect.idx (ix2 l q)) = x2 (ix2 (lo l) q)
  congr 1
  funext a
  apply Fin.ext
  match a with
  | ⟨0, _⟩ => show 0 + 1 * l.val = l.val; omega
  | ⟨1, _⟩ => show 0 + 1 * q.val = q.val; omega

/-- The load through the rectangle at row offset 128 reads the bottom half. -/
theorem ld_bot (x2 : Vec Ideal S256x128 .f32) : View.ld x2 r0_2 = bot x2 := by
  funext j
  obtain ⟨l, q, rfl⟩ : ∃ (l q : Fin 128), j = ix2 l q := ⟨j 0, j 1, eq_ix2 j⟩
  rw [bot_ix2]
  show x2 (r0_2.toLoadRect.idx (ix2 l q)) = x2 (ix2 (hi l) q)
  congr 1
  funext a
  apply Fin.ext
  match a with
  | ⟨0, _⟩ => show 128 + 1 * l.val = 128 + l.val; omega
  | ⟨1, _⟩ => show 0 + 1 * q.val = q.val; omega

/-- What the body leaves in the output block, at position (p, q): the encoder's entry (p, q) over the A block, the B
    block and the body's copy of W. -/
theorem out_at (x0 x1 : Vec Ideal S10000x128 .f32) (x2 : Vec Ideal S256x128 .f32) (p : Fin 10000) (q : Fin 128) :
    out0_3 (F := Ideal) x0 x1 x2 (ix2 p q) = enc x0 x1 x2 p q := by
  have hz : (![0, 0] : Fin 2 → Nat) = fun _ => 0 := funext fun a => by fin_cases a <;> rfl
  unfold out0_3
  rw [View.canon_unit_zero hz]
  simp only [View.ld_unit_zero (S := S10000x128) hz]
  rw [ld_top, ld_bot]
  exact pay_at x0 x1 (top x2) (bot x2) p q

end EdgeEnc.Body

end
-- ==== Proof.Blocks.lean ====
/-
  From the blocks to the whole array.

  The grid has 32 points.  At point t the kernel reads rows 10000·t … 10000·t + 9999 of A and of B and the whole of W, and
  writes rows 10000·t … 10000·t + 9999 of the result.  Entry (r, q) of the encoder depends on row r of A, row r of B and
  on W only, so what point t writes is the band of the encoder array at those rows (`flushed_eq`).  The 32 bands tile
  the 320000 rows: row r lies in the band of point r / 10000 (`cover`).  Hence the array after the run is the encoder
  array (`final`), and the kernel's run ends with its result at the encoder of its three arguments (`run`).
-/
import proofs.«122359_g72773925864120_cont_sun_m_400_11_alg».proof.Proof.Gen.KernelIdeal.Value
import proofs.«122359_g72773925864120_cont_sun_m_400_11_alg».proof.Proof.Payload

set_option maxRecDepth 16384

noncomputable section

namespace EdgeEnc.Blocks

open Cert.KernelIdeal Cert.KernelIdeal.Gen Idealize.ShloMosaic Idealize.ShloMosaic.TcCoe Idealize.SL.Sem
open Idealize.ShloMosaic.ValueIdx EdgeEnc
open Idealize.ShloMosaic.Pipeline (Dat)

variable (m : (ℓ : Loc nD τ sig) → Buf (Elt Ideal) ℓ) (ρ : Dev nD → PrngReg)

/-- The index maps over the 32 points: the A, B and result windows sit at block row t and block column 0, the W
    window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 32 :=
  (by decide +kernel : ∀ t : Fin grid0.N, _)

/-- Every block row below 32 is some point's. -/
theorem idx_onto : ∀ q0 : Fin 32, ∃ t : Fin cfg0.N, win0_3.index t (0 : Fin 2) = q0.val ∧ win0_3.index t (1 : Fin 2) = 0 :=
  (by decide +kernel : ∀ q0 : Fin 32, ∃ t : Fin grid0.N, win0_3.index t (0 : Fin 2) = q0.val ∧ win0_3.index t (1 : Fin 2) = 0)

/-- What point t writes back is the band of the encoder array at the point's rows. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Cert.KernelIdeal.Value.flushed3]
  obtain ⟨e00, e01, e10, e11, e20, e21, e30, e31, ht⟩ := idx_facts t
  funext j
  obtain ⟨p, q, rfl⟩ : ∃ (p : Fin 10000) (q : Fin 128), j = ix2 p q := ⟨j 0, j 1, eq_ix2 j⟩
  have hp : p.val < 10000 := p.isLt
  have hr : t.val * 10000 + p.val < 320000 := by omega
  show out0_3 (iblk m c 0 t) (iblk m c 1 t) (iblk m c 2 t) (ix2 p q)
      = G (V m c main_arg0) (V m c main_arg1) (V m c main_arg2) (((cfg0.win 3).blk t).view.emb (ix2 p q))
  -- the rows of the A and B blocks are rows of A and B, and the block of W is W
  have hA : ∀ l : Fin 128, iblk m c 0 t (ix2 p l) = V m c main_arg0 (ix2 ⟨t.val * 10000 + p.val, hr⟩ l) := fun l => by
    show V m c main_arg0 (((cfg0.win 0).blk t).view.emb (ix2 p l)) = _
    congr 1; funext a; apply Fin.ext
    match a with
    | ⟨0, _⟩ => show win0_0.index t (0 : Fin 2) * 10000 + 1 * p.val = t.val * 10000 + p.val; omega
    | ⟨1, _⟩ => show win0_0.index t (1 : Fin 2) * 128 + 1 * l.val = l.val; omega
  have hB : ∀ l : Fin 128, iblk m c 1 t (ix2 p l) = V m c main_arg1 (ix2 ⟨t.val * 10000 + p.val, hr⟩ l) := fun l => by
    show V m c main_arg1 (((cfg0.win 1).blk t).view.emb (ix2 p l)) = _
    congr 1; funext a; apply Fin.ext
    match a with
    | ⟨0, _⟩ => show win0_1.index t (0 : Fin 2) * 10000 + 1 * p.val = t.val * 10000 + p.val; omega
    | ⟨1, _⟩ => show win0_1.index t (1 : Fin 2) * 128 + 1 * l.val = l.val; omega
  have hW : iblk m c 2 t = V m c main_arg2 := by
    funext y
    show V m c main_arg2 (((cfg0.win 2).blk t).view.emb y) = V m c main_arg2 y
    congr 1; funext a; apply Fin.ext
    match a with
    | ⟨0, _⟩ => show win0_2.index t (0 : Fin 2) * 256 + 1 * (y 0).val = (y 0).val; omega
    | ⟨1, _⟩ => show win0_2.index t (1 : Fin 2) * 128 + 1 * (y 1).val = (y 1).val; omega
  have hemb : ((cfg0.win 3).blk t).view.emb (ix2 p q) = ix2 ⟨t.val * 10000 + p.val, hr⟩ q := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * q.val = q.val; omega
  refine (Body.out_at (iblk m c 0 t) (iblk m c 1 t) (iblk m c 2 t) p q).trans ?_
  refine (enc_band (iblk m c 0 t) (iblk m c 1 t) (iblk m c 2 t) (V m c main_arg0) (V m c main_arg1) (V m c main_arg2)
    p ⟨t.val * 10000 + p.val, hr⟩ hA hB hW q).trans ?_
  exact (G_ix2 (V m c main_arg0) (V m c main_arg1) (V m c main_arg2) ⟨t.val * 10000 + p.val, hr⟩ q).symm.trans
    (congrArg (G (V m c main_arg0) (V m c main_arg1) (V m c main_arg2)) hemb.symm)

/-- An index of the result array is in point t's block iff each coordinate is in the block's range on its axis. -/
theorem mem_blk (t : Fin cfg0.N) (i : S320000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0).slice (win0_3.rect t)).set ↔ _
  rw [View.set_slice_whole, Rect.mem_set_unit]
  exact Iff.rfl

/-- The 32 bands tile the rows: row r is in the band of point r / 10000. -/
theorem cover (i : S320000x128.Idx) : ∃ t : Fin cfg0.N, (cfg0.win 3).flush t = true ∧ i ∈ ((cfg0.win 3).blk t).view.set := by
  have hi0 : (i 0).val < 320000 := (i 0).isLt
  have hi1 : (i 1).val < 128 := (i 1).isLt
  obtain ⟨t, q0, q1⟩ := idx_onto ⟨(i 0).val / 10000, by omega⟩
  have q0' : win0_3.index t (0 : Fin 2) = (i 0).val / 10000 := q0
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the run is the encoder of the three argument arrays. -/
theorem final (c : Dev nD) :
    (dats m 0 c).arrAt 3 cfg0.N = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2)) (fun t _ => flushed_eq m c t) cover

/-- The kernel's run: every weakly fair execution terminates with the result at the encoder of the arguments and the
    arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end EdgeEnc.Blocks

end
-- ==== Proof.lean ====
/-
  The edge encoder: relu ([A | B] · W) computed as relu (A · W_top + B · W_bot).

  A and B have 320000 rows of 128 entries and W has 256 rows of 128 entries.  The reference joins each row of A with the
  same row of B into a row of 256 entries, multiplies the joined array by W and clamps at zero.  The kernel never forms the
  joined rows: on each of 32 bands of 10000 rows it multiplies the band of A by the first 128 rows of W and the band of B
  by the last 128 rows, adds the two products and clamps at zero.

  On the extended reals both are the array `EdgeEnc.G`: entry (r, q) is
  max (∑ l < 128, A (r, l) · W (l, q) + ∑ l < 128, B (r, l) · W (128 + l, q)) 0.
  For the reference this is the regrouping of a sum over 256 positions into its first and last 128 terms (a finite sum in
  a commutative monoid: no finiteness of the entries is used).  For the kernel each entry depends on one row of A, one row
  of B and on W only, so each band written is the band of `G`, and the 32 bands tile the rows.

  Each of the three programs runs to its end and leaves A, B and W as they were (the frames); reading the kernel at the
  extended reals rewrote none of its operations, so there is nothing further to preserve.
-/
import proofs.«122359_g72773925864120_cont_sun_m_400_11_alg».proof.Defs
import proofs.«122359_g72773925864120_cont_sun_m_400_11_alg».proof.Proof.Gen.Kernel
import proofs.«122359_g72773925864120_cont_sun_m_400_11_alg».proof.Proof.Gen.Kernel.Skeleton
import proofs.«122359_g72773925864120_cont_sun_m_400_11_alg».proof.Proof.Gen.Kernel.Launch
import proofs.«122359_g72773925864120_cont_sun_m_400_11_alg».proof.Proof.Gen.Kernel.Points
import proofs.«122359_g72773925864120_cont_sun_m_400_11_alg».proof.Proof.Gen.Kernel.Frame
import proofs.«122359_g72773925864120_cont_sun_m_400_11_alg».proof.Proof.Gen.KernelIdeal
import proofs.«122359_g72773925864120_cont_sun_m_400_11_alg».proof.Proof.Gen.KernelIdeal.Skeleton
import proofs.«122359_g72773925864120_cont_sun_m_400_11_alg».proof.Proof.Gen.KernelIdeal.Launch
import proofs.«122359_g72773925864120_cont_sun_m_400_11_alg».proof.Proof.Gen.KernelIdeal.Points
import proofs.«122359_g72773925864120_cont_sun_m_400_11_alg».proof.Proof.Gen.KernelIdeal.Frame
import proofs.«122359_g72773925864120_cont_sun_m_400_11_alg».proof.Proof.Gen.ReferenceIdeal
import proofs.«122359_g72773925864120_cont_sun_m_400_11_alg».proof.Proof.Gen.Pre_finite_inputs
import proofs.«122359_g72773925864120_cont_sun_m_400_11_alg».proof.Proof.Gen.KernelIdeal.Value
import proofs.«122359_g72773925864120_cont_sun_m_400_11_alg».proof.Proof.Gen.ReferenceIdeal.Run
import proofs.«122359_g72773925864120_cont_sun_m_400_11_alg».proof.Proof.Gen.ReferenceIdeal.Read
import proofs.«122359_g72773925864120_cont_sun_m_400_11_alg».proof.Proof.RefSpec
import proofs.«122359_g72773925864120_cont_sun_m_400_11_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on A, B and W both programs end with the encoder array `EdgeEnc.G` of A, B and W. -/
theorem algebraic : Cert.algebraic_KernelIdeal_ReferenceIdeal := by
  intro m ρ m' ρ' _ hagree
  refine ⟨fun c => EdgeEnc.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    EdgeEnc.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, EdgeEnc.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
